-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S3x1024x1024 : Shape := ⟨3, ![3, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn {F : FTy → Type} [FloatOps F] (main_arg0 : FVec F S8192x1024 .f32) (main_arg1 : FVec F S3x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S3x1024x1024 .f32 := Host.absf main_arg1
  let main_cst_0 : FVec F S_ .f32 := constant S_ .f32 0x7F800000#32
  let main_v5 : FVec F S3x1024x1024 .f32 := broadcastInDim S3x1024x1024 ![] bcast_S_S3x1024x1024 main_cst_0
  let main_v6 : IVec S3x1024x1024 1 := cmpf .olt main_v4 main_v5
  let main_c_1 : IVec S_ 1 := constantI S_ 1 1#1
  let main_v7 : IVec S_ 1 := (fun x v => Host.reduce IntOp.andi x v reducesTo_S3x1024x1024_S_d0_1_2 h_S_) main_v6 main_c_1
  let main_v8 : IVec S_ 1 := andi main_v3 main_v7
  main_v8
-- ==== Kernel.lean ====
abbrev S8192x1024 : Shape := ⟨2, ![8192, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S8192x1x1024 : Shape := ⟨3, ![8192, 1, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S3x1024x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S8192x1024, .f32⟩
  | .hbm, ⟨6, _⟩ => ⟨S8192x1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S3x1024x1024_S1x1024x1024_2_0_0 : S3x1024x1024.Slices ![2, 0, 0] S1x1024x1024
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S8192x1024_S8192x1x1024_0_2 : S8192x1024.BroadcastsInDim S8192x1x1024 (![0, 2] : Fin 2 → Fin S8192x1x1024.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S3x1024x1024 : Shape := ⟨3, ![3, 1024, 1024]⟩
abbrev S8192x1x1024 : Shape := ⟨3, ![8192, 1, 1024]⟩
abbrev S1x1024x1024 : Shape := ⟨3, ![1, 1024, 1024]⟩
abbrev S1024x1024 : Shape := ⟨2, ![1024, 1024]⟩
abbrev S8192x1x1 : Shape := ⟨3, ![8192, 1, 1]⟩
abbrev S_ : Shape := ⟨0, ![]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x1024x1024, .f32⟩
  | .hbm, ⟨2, _⟩ => ⟨S8192x1x1024, .f32⟩
  | .hbm, ⟨3, _⟩ => ⟨S1x1024x1024, .f32⟩
  | .hbm, ⟨4, _⟩ => ⟨S1024x1024, .f32⟩
  | .hbm, ⟨5, _⟩ => ⟨S8192x1x1024, .f32⟩
  | .hbm, ⟨6, _⟩ => ⟨S1x1024x1024, .f32⟩
  | .hbm, ⟨7, _⟩ => ⟨S1024x1024, .f32⟩
  | .hbm, ⟨8, _⟩ => ⟨S8192x1x1024, .f32⟩
  | .hbm, ⟨9, _⟩ => ⟨S1x1024x1024, .f32⟩
  | .hbm, ⟨10, _⟩ => ⟨S1024x1024, .f32⟩
  | .hbm, ⟨11, _⟩ => ⟨S8192x1x1024, .f32⟩
  | .hbm, ⟨12, _⟩ => ⟨S8192x1x1, .f32⟩
  | .hbm, ⟨13, _⟩ => ⟨S_, .f32⟩
  | .hbm, ⟨14, _⟩ => ⟨S_, .f32⟩
  | .hbm, ⟨15, _⟩ => ⟨S8192x1x1, .f32⟩
  | .hbm, ⟨16, _⟩ => ⟨S8192x1x1, .f32⟩
  | .hbm, ⟨17, _⟩ => ⟨S_, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1x1, .f32⟩
  | .hbm, ⟨23, _⟩ => ⟨S8192x1x1, .f32⟩
  | .hbm, ⟨24, _⟩ => ⟨S8192x1x1, .f32⟩
  | .hbm, ⟨25, _⟩ => ⟨S_, .f32⟩
  | .hbm, ⟨26, _⟩ => ⟨S8192x1, .f32⟩
  | .hbm, ⟨27, _⟩ => ⟨S8192x1x1, .f32⟩
  | .hbm, ⟨28, _⟩ => ⟨S8192x1x1, .f32⟩
  | .hbm, ⟨29, _⟩ => ⟨S8192x1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  bcast_S8192x1024_S8192x1x1024_0_2 : S8192x1024.BroadcastsInDim S8192x1x1024 (![0, 2] : Fin 2 → Fin S8192x1x1024.rank)
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S3x1024x1024_S1x1024x1024_2_0_0 : S3x1024x1024.Slices ![2, 0, 0] S1x1024x1024
  bcast_S_S8192x1x1 : S_.BroadcastsInDim S8192x1x1 (![] : Fin 0 → Fin S8192x1x1.rank)
  reducesTo_S8192x1x1_S8192x1_d2 : S8192x1x1.ReducesTo [2] S8192x1
  h_S_ : 0 < S_.numel
  bcast_S_S8192x1 : S_.BroadcastsInDim S8192x1 (![] : Fin 0 → Fin S8192x1.rank)
  bcast_S8192x1_S8192x1x1_0_1 : S8192x1.BroadcastsInDim S8192x1x1 (![0, 1] : Fin 2 → Fin S8192x1x1.rank)
  dot_S8192x1x1024_S1024x1024_S8192x1x1024_2_0_01_1_n_n_wf : DotDims.WF S8192x1x1024 S1024x1024 S8192x1x1024 [2] [0] [0, 1] [1] [] []
  dot_S8192x1x1024_S8192x1x1024_S8192x1x1_2_2_1_1_0_0_wf : DotDims.WF S8192x1x1024 S8192x1x1024 S8192x1x1 [2] [2] [1] [1] [0] [0]
  dot_S8192x1x1_S8192x1x1024_S8192x1x1024_2_1_1_2_0_0_wf : DotDims.WF S8192x1x1 S8192x1x1024 S8192x1x1024 [2] [1] [1] [2] [0] [0]

variable [Facts₀]

def dot_S8192x1x1024_S1024x1024_S8192x1x1024_2_0_01_1_n_n : DotDims S8192x1x1024 S1024x1024 S8192x1x1024 where
  lhsContracting := [2]
  rhsContracting := [0]
  lhsNonContracting := [0, 1]
  rhsNonContracting := [1]
  lhsBatch := []
  rhsBatch := []
  wf := dot_S8192x1x1024_S1024x1024_S8192x1x1024_2_0_01_1_n_n_wf
def dot_S8192x1x1024_S8192x1x1024_S8192x1x1_2_2_1_1_0_0 : DotDims S8192x1x1024 S8192x1x1024 S8192x1x1 where
  lhsContracting := [2]
  rhsContracting := [2]
  lhsNonContracting := [1]
  rhsNonContracting := [1]
  lhsBatch := [0]
  rhsBatch := [0]
  wf := dot_S8192x1x1024_S8192x1x1024_S8192x1x1_2_2_1_1_0_0_wf
def dot_S8192x1x1_S8192x1x1024_S8192x1x1024_2_1_1_2_0_0 : DotDims S8192x1x1 S8192x1x1024 S8192x1x1024 where
  lhsContracting := [2]
  rhsContracting := [1]
  lhsNonContracting := [1]
  rhsNonContracting := [2]
  lhsBatch := [0]
  rhsBatch := [0]
  wf := dot_S8192x1x1_S8192x1x1024_S8192x1x1024_2_1_1_2_0_0_wf

class Facts : Prop extends Facts₀ where

variable [Facts]
-- ==== Proof.OneKey.lean ====
/-
  Attention with ONE key per query, on the extended reals.

  A query row has a single score `s`, so its softmax weight is `exp (s - m) / (0 + exp (s - m))` with `m` the
  maximum of the one-element row taken from `-∞`, that is `m = s`. When `s` is a real number the difference
  `s - s` is `0`, `exp 0 = 1` and the weight is `1 / 1 = 1`; the attention output `1 · v` is then the value row `v`
  itself. At `s = ±∞` the difference `s - s` is `-∞` on the extended reals and the weight is not `1`: this is
  where finiteness of the inputs enters. A score is a real number as soon as the inputs are: it is a finite sum of
  products of real numbers, divided by the nonzero real `√1024`.

  The result both programs compute is `value x w`: at `(b, 0, o)` the sum over `d` of `x[b, d] · w[2, d, o]`.
-/
import Idealize.ShloMosaic.PureOps.Ideal
import Idealize.ShloMosaic.PureOps.Ideal.Laws
import Idealize.ShloMosaic.Lib.ValueIdx

noncomputable section

namespace Cert.OneKey

open Idealize.ShloMosaic Idealize.ShloMosaic.ValueIdx

/-! ## Extended reals that are real numbers -/

/-- `x` is a real number (neither infinity). -/
def IsReal (x : EReal) : Prop := ∃ r : ℝ, x = (r : EReal)

theorem IsReal.mul {a b : EReal} (ha : IsReal a) (hb : IsReal b) : IsReal (a * b) := by
  obtain ⟨ra, rfl⟩ := ha
  obtain ⟨rb, rfl⟩ := hb
  exact ⟨ra * rb, (EReal.coe_mul ra rb).symm⟩

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    obtain ⟨ra, ea⟩ := h a (Finset.mem_insert_self a s)
    obtain ⟨rs, es⟩ := ih (fun i hi => h i (Finset.mem_insert_of_mem hi))
    exact ⟨ra + rs, by rw [Finset.sum_insert ha, ea, es, EReal.coe_add]⟩

/-- A real number divided by a nonzero real number is a real number. -/
theorem IsReal.div_coe {a : EReal} (ha : IsReal a) {y : ℝ} (hy : y ≠ 0) : IsReal (Ideal.div a (y : EReal)) := by
  rw [Ideal.div_coe hy]
  exact ha.mul ⟨1 / y, rfl⟩

/-! ## The three constants of the softmax -/

/-- The scale's radicand: the pattern of `1024.0`. -/
theorem ofBits_1024 : Ideal.ofBits .f32 0x44800000#32 = ((1024 : ℝ) : EReal) := by
  simp [Ideal.ofBits, Ideal.ieee]
  norm_cast
  norm_num

/-- The maximum's starting value: the pattern of `-∞`. -/
theorem ofBits_negInf : Ideal.ofBits .f32 0xFF800000#32 = (⊥ : EReal) := by
  simp [Ideal.ofBits, Ideal.ieee]

/-- The scale `√1024` is a nonzero real number. -/
theorem sqrt_1024 : ∃ y : ℝ, y ≠ 0 ∧ Ideal.sqrt ((1024 : ℝ) : EReal) = (y : EReal) :=
  ⟨Real.sqrt 1024, (Real.sqrt_ne_zero'.mpr (by norm_num)), by rw [Ideal.sqrt_coe, if_neg (by norm_num)]⟩

/-! ## The softmax weight of a single real score is one -/

theorem sub_self_of_isReal {s : EReal} (hs : IsReal s) : s - s = 0 := by
  obtain ⟨r, rfl⟩ := hs
  rw [← EReal.coe_sub, sub_self, EReal.coe_zero]

theorem exp_zero : Ideal.exp 0 = 1 := by
  rw [← EReal.coe_zero, Ideal.exp_coe, Real.exp_zero, EReal.coe_one]

theorem div_one_one : Ideal.div 1 1 = 1 := by
  have h := Ideal.div_coe (y := 1) one_ne_zero (1 : EReal)
  rw [EReal.coe_one] at h
  rw [h]
  simp

/-- The softmax over a one-element row of a real score: the row's maximum from `-∞` is the score, the shifted
    score is `0`, its exponential `1`, the normalizer `0 + 1`, the weight `1`. -/
theorem weight_eq_one {s : EReal} (hs : IsReal s) :
    Ideal.div (Ideal.exp (s - max ⊥ (max s ⊥))) (0 + Ideal.exp (s - max ⊥ (max s ⊥))) = 1 := by
  rw [max_bot_right, max_bot_left, sub_self_of_isReal hs, exp_zero, zero_add, div_one_one]

/-! ## The common result -/

abbrev SX : Shape := ⟨2, ![8192, 1024]⟩
abbrev SW : Shape := ⟨3, ![3, 1024, 1024]⟩
abbrev SO : Shape := ⟨3, ![8192, 1, 1024]⟩

/-- Row `b` of `x` against column `o` of the `p`-th weight matrix. -/
def proj (x : SX.Idx → EReal) (w : SW.Idx → EReal) (p : Fin 3) (b : Fin 8192) (o : Fin 1024) : EReal :=
  ∑ d : Fin 1024, x (ix2 b d) * w (ix3 p d o)

/-- A projection of real inputs is real. -/
theorem proj_isReal {x : SX.Idx → EReal} {w : SW.Idx → EReal} (hx : ∀ i, IsReal (x i)) (hw : ∀ i, IsReal (w i))
    (p : Fin 3) (b : Fin 8192) (o : Fin 1024) : IsReal (proj x w p b o) :=
  IsReal.sum _ _ fun d _ => (hx _).mul (hw _)

/-- What both programs return: the value projection, with the unit sequence axis kept. -/
def value (x : SX.Idx → EReal) (w : SW.Idx → EReal) : SO.Idx → EReal :=
  fun i => proj x w 2 (i 0) (i 2)

end Cert.OneKey

end
-- ==== Proof.FiniteInputs.lean ====
/-
  What the precondition says of the inputs: every entry of `x` and of the three weight matrices is a real number.

  The precondition is the conjunction of two `all`s, one per input, of the elementwise test `|a| < +∞`. An
  `all` that holds holds at every element; on the extended reals `|a| = max a (-a)`, which is `+∞` at both
  infinities, so the test holds exactly at the real numbers.
-/
import proofs.«152140_j16973710754186_2_alg».proof.Pre_finite_inputs
import proofs.«152140_j16973710754186_2_alg».proof.Proof.OneKey
import Idealize.ShloMosaic.Lib.ReduceAll
import Idealize.ShloMosaic.Lib.Pipeline.Value
import Idealize.ShloMosaic.Lib.ValueIdx

noncomputable section

namespace Cert.OneKey

open Idealize.ShloMosaic Cert.Pre_finite_inputs

/-- The bound of the test: the pattern of `+∞`. -/
theorem ofBits_posInf : Ideal.ofBits .f32 0x7F800000#32 = (⊤ : EReal) := by
  simp [Ideal.ofBits, Ideal.ieee]

/-- An extended real whose absolute value is below `+∞` is a real number. -/
theorem isReal_of_abs_lt_top {a : EReal} (h : max a (-a) < ⊤) : IsReal a := by
  induction a using EReal.rec with
  | bot => simp at h
  | top => simp at h
  | coe r => exact ⟨r, rfl⟩

instance : Subsingleton S_.Idx := ⟨fun a b => funext fun d => d.elim0⟩

/-- One element of the test `|x| < +∞` that holds: the element is a real number. -/
theorem isReal_of_test {S : Shape} (x : FVec Ideal S .f32) (hb : S_.BroadcastsInDim S (![] : Fin 0 → Fin S.rank)) (i : S.Idx)
    (e : cmpf .olt (Host.absf x) (broadcastInDim S ![] hb (constant (F := Ideal) S_ .f32 0x7F800000#32)) i = 1#1) :
    IsReal (x i) := by
  have hb' : broadcastInDim S ![] hb (constant (F := Ideal) S_ .f32 0x7F800000#32) i = (⊤ : EReal) := by
    rw [broadcastInDim_apply _ hb _ i ValueIdx.ix0 (fun a => a.elim0)]
    exact ofBits_posInf
  have e' : Ideal.cmp .olt (max (x i) (-(x i))) (broadcastInDim S ![] hb (constant (F := Ideal) S_ .f32 0x7F800000#32) i) = 1#1 := e
  rw [hb'] at e'
  refine isReal_of_abs_lt_top ?_
  by_contra hlt
  simp [Ideal.cmp, hlt] at e'

/-- Under the precondition both inputs hold real numbers only. -/
theorem real_of_pre [Facts] (x : FVec Ideal S8192x1024 .f32) (w : FVec Ideal S3x1024x1024 .f32)
    (h : fn (F := Ideal) x w = fun _ => 1#1) : (∀ i, IsReal (x i)) ∧ (∀ i, IsReal (w i)) := by
  have h0 := congrFun h ValueIdx.ix0
  dsimp only [fn] at h0
  change IntOp.andi _ _ = 1#1 at h0
  obtain ⟨hx, hw⟩ := IntOp.andi_eq_one.1 h0
  exact ⟨fun i => isReal_of_test x _ i (Host.reduce_andi_all _ _ _ _ _ hx i),
    fun i => isReal_of_test w _ i (Host.reduce_andi_all _ _ _ _ _ hw i)⟩

end Cert.OneKey

end
-- ==== Proof.RefValue.lean ====
/-
  The reference, read back: its result at `(b, 0, o)` is the value projection `∑ d, x[b, d] · w[2, d, o]`.

  The reference forms the three projections `q, k, v` of the row (each a sum over `d` against one of the three
  weight matrices), the score `(∑ o, q[o] · k[o]) / √1024` of the single query against the single key, the softmax
  of that one-element row, and the contraction of the weight with `v` over the one key. With real inputs the score
  is a real number, so the weight is `1` and the contraction is `1 · v = v`.
-/
import proofs.«152140_j16973710754186_2_alg».proof.Proof.Gen.ReferenceIdeal.Read
import proofs.«152140_j16973710754186_2_alg».proof.Proof.OneKey
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.OneKey

variable (x0 : (⟨S8192x1024, .f32⟩ : BufTy).Contents (Elt Ideal)) (x1 : (⟨S3x1024x1024, .f32⟩ : BufTy).Contents (Elt Ideal))

/-! ## The three projections -/

/-- The query projection at `(b, 0, o)`: row `b` of `x` against column `o` of the first weight matrix. -/
theorem q_eq (i : S8192x1x1024.Idx) : val_main_v3 (F := Ideal) x0 x1 i = proj x0 x1 0 (i 0) (i 2) := by
  rw [val_main_v3_apply]
  unfold proj
  refine Finset.sum_congr rfl fun k _ => ?_
  rw [val_main_v0_apply, val_main_v2_apply, val_main_v1_apply]
  have hk : k.val < 1024 := k.isLt
  have hi : (i 2).val < 1024 := (i 2).isLt
  have el : idx_main_v0 (lidx_main_v3 i k) = ix2 (i 0) k :=
    funext fun a => Fin.ext (by match a with | ⟨0, _⟩ => rfl | ⟨1, _⟩ => rfl)
  have er : idx_main_v1 (idx_main_v2 (ridx_main_v3 i k)) = ix3 (0 : Fin 3) k (i 2) :=
    funext fun a => Fin.ext (by
      match a with
      | ⟨0, _⟩ => rfl
      | ⟨1, _⟩ => show (k.val * 1024 + (i 2).val) / 1024 % 1024 = k.val; omega
      | ⟨2, _⟩ => show (k.val * 1024 + (i 2).val) % 1024 = (i 2).val; omega)
  rw [el, er]
  rfl

/-- The key projection, against the second weight matrix. -/
theorem k_eq (i : S8192x1x1024.Idx) : val_main_v6 (F := Ideal) x0 x1 i = proj x0 x1 1 (i 0) (i 2) := by
  rw [val_main_v6_apply]
  unfold proj
  refine Finset.sum_congr rfl fun k _ => ?_
  rw [val_main_v0_apply, val_main_v5_apply, val_main_v4_apply]
  have hk : k.val < 1024 := k.isLt
  have hi : (i 2).val < 1024 := (i 2).isLt
  have el : idx_main_v0 (lidx_main_v6 i k) = ix2 (i 0) k :=
    funext fun a => Fin.ext (by match a with | ⟨0, _⟩ => rfl | ⟨1, _⟩ => rfl)
  have er : idx_main_v4 (idx_main_v5 (ridx_main_v6 i k)) = ix3 (1 : Fin 3) k (i 2) :=
    funext fun a => Fin.ext (by
      match a with
      | ⟨0, _⟩ => rfl
      | ⟨1, _⟩ => show (k.val * 1024 + (i 2).val) / 1024 % 1024 = k.val; omega
      | ⟨2, _⟩ => show (k.val * 1024 + (i 2).val) % 1024 = (i 2).val; omega)
  rw [el, er]
  rfl

/-- The value projection, against the third weight matrix. -/
theorem v_eq (i : S8192x1x1024.Idx) : val_main_v9 (F := Ideal) x0 x1 i = proj x0 x1 2 (i 0) (i 2) := by
  rw [val_main_v9_apply]
  unfold proj
  refine Finset.sum_congr rfl fun k _ => ?_
  rw [val_main_v0_apply, val_main_v8_apply, val_main_v7_apply]
  have hk : k.val < 1024 := k.isLt
  have hi : (i 2).val < 1024 := (i 2).isLt
  have el : idx_main_v0 (lidx_main_v9 i k) = ix2 (i 0) k :=
    funext fun a => Fin.ext (by match a with | ⟨0, _⟩ => rfl | ⟨1, _⟩ => rfl)
  have er : idx_main_v7 (idx_main_v8 (ridx_main_v9 i k)) = ix3 (2 : Fin 3) k (i 2) :=
    funext fun a => Fin.ext (by
      match a with
      | ⟨0, _⟩ => rfl
      | ⟨1, _⟩ => show (k.val * 1024 + (i 2).val) / 1024 % 1024 = k.val; omega
      | ⟨2, _⟩ => show (k.val * 1024 + (i 2).val) % 1024 = (i 2).val; omega)
  rw [el, er]
  rfl

/-! ## The score is a real number -/

variable (hx : ∀ i, IsReal (x0 i)) (hw : ∀ i, IsReal (x1 i))

include hx hw in
/-- The score `(∑ o, q[o] · k[o]) / √1024` of real inputs is real. -/
theorem score_isReal (j : S8192x1x1.Idx) : IsReal (val_main_v13 (F := Ideal) x0 x1 j) := by
  obtain ⟨y, hy, ey⟩ := sqrt_1024
  rw [val_main_v13_apply, Ideal.hostDivf_def, val_main_v12_apply, val_main_v11_apply, val_main_cst_apply,
    Ideal.hostUnary_sqrt_def, Ideal.ofBits_def, ofBits_1024, ey]
  refine IsReal.div_coe ?_ hy
  rw [val_main_v10_apply]
  refine IsReal.sum _ _ fun k _ => IsReal.mul ?_ ?_
  · rw [q_eq]; exact proj_isReal hx hw _ _ _
  · rw [k_eq]; exact proj_isReal hx hw _ _ _

/-! ## The softmax of the one-element row -/

/-- A fold of a commutative, associative operation over an index type with one element applies it once. -/
theorem fold_fin_one {α : Type} (op : α → α → α) [Std.Commutative op] [Std.Associative op] {n : Nat} (hn : n = 1)
    (b : α) (f : Fin n → α) : (Finset.univ : Finset (Fin n)).fold op b f = op (f ⟨0, by omega⟩) b := by
  subst hn
  rw [Finset.univ_unique, Finset.fold_singleton]
  rfl

/-- The row maximum from `-∞`, then once more against `-∞`, of a row with one element is that element. -/
theorem rowmax_eq (j : S8192x1x1.Idx) : val_main_v17 (F := Ideal) x0 x1 j = val_main_v13 (F := Ideal) x0 x1 j := by
  rw [val_main_v17_apply, val_main_v16_apply, val_main_v15_apply, val_main_cst_1_apply]
  unfold val_main_v14
  have hred : S8192x1x1.Reduces [2] S8192x1 := by decide
  rw [Host.reduce_eq_fold_single FloatOps.maximumf _ _ reducesTo_S8192x1x1_S8192x1_d2 hred h_S_]
  rw [fold_fin_one FloatOps.maximumf (rfl : S8192x1x1.size 2 = 1)]
  simp only [Ideal.maximumf_def, Ideal.ofBits_def, val_main_cst_0_apply, Function.comp_apply]
  rw [ofBits_negInf, max_bot_right, max_bot_left]
  refine congrArg (val_main_v13 (F := Ideal) x0 x1) (funext fun a => Fin.ext ?_)
  have h1 : (j 1).val < 1 := (j 1).isLt
  have h2 : (j 2).val < 1 := (j 2).isLt
  match a with
  | ⟨0, _⟩ => rfl
  | ⟨1, _⟩ => show 0 = (j 1).val; omega
  | ⟨2, _⟩ => show 0 = (j 2).val; omega

include hx hw in
/-- The shifted score is `0`, so its exponential is `1`. -/
theorem exp_eq_one (j : S8192x1x1.Idx) : val_main_v19 (F := Ideal) x0 x1 j = 1 := by
  rw [val_main_v19_apply, val_main_v18_apply, rowmax_eq, Ideal.hostUnary_exp_def, Ideal.subf_def,
    sub_self_of_isReal (score_isReal x0 x1 hx hw j), exp_zero]

include hx hw in
/-- The normalizer is `0 + 1` and the weight `1 / 1`. -/
theorem weight_one (j : S8192x1x1.Idx) : val_main_v22 (F := Ideal) x0 x1 j = 1 := by
  rw [val_main_v22_apply, val_main_v21_apply, val_main_v20_apply, val_main_cst_2_apply, Ideal.hostDivf_def,
    Ideal.ofBits_def, Ideal.ofBits_zero_f32, zero_add, Finset.univ_unique, Finset.sum_singleton,
    exp_eq_one x0 x1 hx hw, exp_eq_one x0 x1 hx hw, div_one_one]

/-! ## The result -/

include hx hw in
/-- The reference's result is the value projection: the contraction over the one key of the weight `1` with `v`. -/
theorem result_eq : val_main_v23 (F := Ideal) x0 x1 = value x0 x1 := by
  funext i
  rw [val_main_v23_apply, Finset.univ_unique, Finset.sum_singleton, weight_one x0 x1 hx hw, one_mul, v_eq]
  rfl

end Cert.ReferenceIdeal.RefValue

end
-- ==== Proof.KernelValue.lean ====
/-
  The kernel, read back: its result at `(b, 0, o)` is the value projection `∑ d, x[b, d] · w[2, d, o]`.

  Before the grid the third weight matrix is sliced out of `w` and reshaped to `[1024, 1024]`; its change of
  format is the identity on the extended reals. The grid has eight points. Point `t` reads rows
  `1024 t, …, 1024 t + 1023` of `x` and the whole sliced matrix, multiplies them into a zero accumulator, and
  writes rows `1024 t, …` of the product: at `(r, o)` of the block, the sum over `d` of `x[1024 t + r, d]` times
  the matrix at `(d, o)`. The eight row blocks tile the `[8192, 1024]` product, so after the grid the product array
  holds `∑ d, x[b, d] · w[2, d, o]` at every `(b, o)`. The last operation gives the product a unit middle axis.
-/
import proofs.«152140_j16973710754186_2_alg».proof.Proof.Gen.KernelIdeal.Frame
import proofs.«152140_j16973710754186_2_alg».proof.Proof.OneKey
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.OneKey

/-! ## The product of the rows of `X` with a `[1024, 1024]` matrix -/

/-- Row `b` of `X` against column `o` of `W`. -/
def rowDot (X : S8192x1024.Idx → EReal) (W : S1024x1024.Idx → EReal) (b : Fin 8192) (o : Fin 1024) : EReal :=
  ∑ d : Fin 1024, X (ix2 b d) * W (ix2 d o)

/-- The whole product. -/
def product (X : S8192x1024.Idx → EReal) (W : S1024x1024.Idx → EReal) : S8192x1024.Idx → EReal :=
  fun i => rowDot X W (i 0) (i 1)

/-! ## The body's arithmetic at an index -/

theorem lhs_row (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem rhs_col (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into a zero accumulator, at `(r, o)`: the sum over `d` of the row block at `(r, d)` times the
    matrix at `(d, o)`. -/
theorem payload_apply (xb : Vec Ideal S1024x1024 .f32) (wb : Vec Ideal S1024x1024 .bf16) (r o : Fin 1024) :
    k0_pay1 (F := Ideal) xb wb (ix2 r o) = ∑ d : Fin 1024, xb (ix2 r d) * wb (ix2 d o) := by
  unfold k0_pay1
  show FloatOps.matmul dot_S1024x1024_S1024x1024_S1024x1024_1_0_0_1_n_n none (truncf .bf16 xb Facts₀.bitsLt_bf16_f32 : FVec Ideal S1024x1024 .bf16)
      (shapeCast S1024x1024 wb Facts₀.shapeCasts_S1024x1024_S1024x1024 : FVec Ideal S1024x1024 .bf16)
      (constant S1024x1024 .f32 0x00000000#32) (ix2 r o) = _
  rw [Ideal.matmul_constant_zero_apply, shapeCast_self, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r o) ((contrEquiv1 dot_S1024x1024_S1024x1024_S1024x1024_1_0_0_1_n_n 1024 rfl rfl).symm k) = ix2 r k := funext fun a => Fin.ext (by
    match a with
    | ⟨0, _⟩ => exact lhs_row _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r o) ((contrEquiv1 dot_S1024x1024_S1024x1024_S1024x1024_1_0_0_1_n_n 1024 rfl rfl).symm k) = ix2 k o := funext fun a => Fin.ext (by
    match a with
    | ⟨0, _⟩ => exact (dot_S1024x1024_S1024x1024_S1024x1024_1_0_0_1_n_n.rhsIdx_val_of_single rfl _ _).trans hk
    | ⟨1, _⟩ => exact rhs_col _ _)
  rw [el, er]
  rfl

variable (m : (ℓ : Loc nD τ sig) → Buf (Elt Ideal) ℓ) (ρ : Dev nD → PrngReg)

/-! ## From the blocks to the product array -/

theorem zero_offsets : (![0, 0] : Fin 2 → Nat) = fun _ => 0 := funext fun a => by fin_cases a <;> rfl

/-- The block indices over the grid: the row block of `x` moves with the output's, everything else stays at zero. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the eight row blocks is some point's. -/
theorem block_onto : ∀ q : Fin 8, ∃ t : Fin cfg0.N, win0_2.index t = ![q.val, 0] :=
  (by decide +kernel : ∀ q : Fin 8, ∃ t : Fin grid0.N, win0_2.index t = ![q.val, 0])

/-- What point `t` writes back is block `t` of the product of `x` with the sliced matrix, as the grid finds them. -/
theorem flushed_eq (c : Dev nD) (t : Fin cfg0.N) :
    (dats m 0 c).flushed 2 t
      = ((cfg0.win 2).blk t).view.read (Elt Ideal) (product (V m c main_arg0) (V m c main_v2)) := by
  show (cfg0.win 2).cut (grid0.coords t) ((dats m 0 c).after 2 t) = _
  rw [after0_2]
  unfold out0_2
  rw [View.canon_unit_zero zero_offsets]
  simp only [View.ld_unit_zero (S := S1024x1024) zero_offsets]
  obtain ⟨e0, e1, e2, e3, e4⟩ := block_indices t
  funext j
  obtain ⟨r, o, rfl⟩ : ∃ (r o : Fin 1024), j = ix2 r o := ⟨j 0, j 1, eq_ix2 j⟩
  show k0_pay1 (F := Ideal) (iblk m c 0 t) (iblk m c 1 t) (ix2 r o)
      = product (V m c main_arg0) (V m c main_v2) (((cfg0.win 2).blk t).view.emb (ix2 r o))
  refine (payload_apply (iblk m c 0 t) (iblk m c 1 t) r o).trans ?_
  unfold product rowDot
  refine Finset.sum_congr rfl fun d _ => ?_
  have hd : d.val < 1024 := d.isLt
  have hr : r.val < 1024 := r.isLt
  have ho : o.val < 1024 := o.isLt
  have h0 : iblk m c 0 t (ix2 r d)
      = V m c main_arg0 (ix2 ((((cfg0.win 2).blk t).view.emb (ix2 r o)) 0) d) := by
    show V m c main_arg0 (((cfg0.win 0).blk t).view.emb (ix2 r d)) = _
    refine congrArg (V m c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 1024 + 1 * d.val = d.val; omega
  have h1 : iblk m c 1 t (ix2 d o)
      = V m c main_v2 (ix2 d ((((cfg0.win 2).blk t).view.emb (ix2 r o)) 1)) := by
    show V m c main_v2 (((cfg0.win 1).blk t).view.emb (ix2 d o)) = _
    refine congrArg (V m c main_v2) (funext fun a => Fin.ext ?_)
    match a with
    | ⟨0, _⟩ => show win0_1.index t (0 : Fin 2) * 1024 + 1 * d.val = d.val; omega
    | ⟨1, _⟩ => show win0_1.index t (1 : Fin 2) * 1024 + 1 * o.val = win0_2.index t (1 : Fin 2) * 1024 + 1 * o.val; omega
  rw [h0, h1]

/-- An index of the product array is in point `t`'s block iff each coordinate is in the block's range on its axis. -/
theorem mem_block (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- The row blocks tile the product: row `b` is in the block of the point whose block index is `b / 1024`. -/
theorem covered (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := block_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The product array after the grid. -/
theorem final (c : Dev nD) : (dats m 0 c).arrAt 2 cfg0.N = product (V m c main_arg0) (V m c main_v2) :=
  (dats m 0 c).arrAt_eq_of_cover 2 _ (fun t _ => flushed_eq m c t) covered

/-! ## The sliced matrix -/

/-- The matrix the grid finds: the third weight matrix, sliced and reshaped. -/
theorem sliced (c : Dev nD) : (V m c main_v2 : FVec Ideal S1024x1024 .bf16)
    = (truncf .bf16 (shapeCast S1024x1024 (extractStridedSlice S1x1024x1024 ![2, 0, 0]
        (m ((c : Thread nD τ).loc main_arg1) : FVec Ideal S3x1024x1024 .f32)
        Facts₀.slices_S3x1024x1024_S1x1024x1024_2_0_0) Facts₀.shapeCasts_S1x1024x1024_S1024x1024 : FVec Ideal S1024x1024 .f32)
        Facts₀.bitsLt_bf16_f32 : FVec Ideal S1024x1024 .bf16) := by
  show StableHlo.after hostOps0 (fun b => m (c, b)) (Proc.devRef .tc main_v2) = _
  after_results
  rfl

/-- Its entry `(d, o)` is `w[2, d, o]`. -/
theorem sliced_apply (w : FVec Ideal S3x1024x1024 .f32) (d o : Fin 1024) :
    (truncf .bf16 (shapeCast S1024x1024 (extractStridedSlice S1x1024x1024 ![2, 0, 0] w
        Facts₀.slices_S3x1024x1024_S1x1024x1024_2_0_0) Facts₀.shapeCasts_S1x1024x1024_S1024x1024 : FVec Ideal S1024x1024 .f32)
        Facts₀.bitsLt_bf16_f32 : FVec Ideal S1024x1024 .bf16) (ix2 d o)
      = w (ix3 (2 : Fin 3) d o) := by
  have hd : d.val < 1024 := d.isLt
  have ho : o.val < 1024 := o.isLt
  show shapeCast S1024x1024 (extractStridedSlice S1x1024x1024 ![2, 0, 0] w Facts₀.slices_S3x1024x1024_S1x1024x1024_2_0_0)
      Facts₀.shapeCasts_S1x1024x1024_S1024x1024 (ix2 d o) = _
  rw [shapeCast_apply _ Facts₀.shapeCasts_S1x1024x1024_S1024x1024 (ix2 d o) (ix3 (0 : Fin 1) d o)
    (by rewrite [Shape.rowMajor_val_three, Shape.rowMajor_val_two]
        show (0 * 1024 + d.val) * 1024 + o.val = d.val * 1024 + o.val; omega)]
  exact extractStridedSlice_apply ![2, 0, 0] w Facts₀.slices_S3x1024x1024_S1x1024x1024_2_0_0 (ix3 (0 : Fin 1) d o)
    (ix3 (2 : Fin 3) d o) (fun a => match a with
      | ⟨0, _⟩ => by show 2 = 2 + 0; rfl
      | ⟨1, _⟩ => by show d.val = 0 + d.val; omega
      | ⟨2, _⟩ => by show o.val = 0 + o.val; omega)

/-! ## The operation after the grid, and the run -/

/-- The result buffer: the product array with a unit middle axis. -/
theorem tail_eq (c : Dev nD) :
    (Pipeline.afterTail₀ cfgs (dats m) 0 (V0 m) [hostOps1] c main_v4 : S8192x1x1024.Idx → EReal)
      = broadcastInDim S8192x1x1024 ![0, 2] Facts₀.bcast_S8192x1024_S8192x1x1024_0_2 ((dats m 0 c).arrAt 2 cfg0.N) := by
  unfold Pipeline.afterTail₀
  show StableHlo.after hostOps1 _ (Proc.devRef .tc main_v4) = _
  after_results
  exact congrArg _ (Pipeline.withArrays_arr spec0 launch0.win.arr_inj c _ _ 2)

/-- The result buffer holds the value projection of the arguments. -/
theorem result_eq (c : Dev nD) :
    (Pipeline.afterTail₀ cfgs (dats m) 0 (V0 m) [hostOps1] c main_v4 : S8192x1x1024.Idx → EReal)
      = value (m ((c : Thread nD τ).loc main_arg0)) (m ((c : Thread nD τ).loc main_arg1)) := by
  rw [tail_eq, final]
  funext i
  rw [broadcastInDim_apply _ Facts₀.bcast_S8192x1024_S8192x1x1024_0_2 _ i (ix2 (i 0) (i 2)) (fun a => match a with
    | ⟨0, _⟩ => by show (i 0).val = if (8192 : Nat) = 1 then 0 else (i 0).val; rw [if_neg (by decide)]
    | ⟨1, _⟩ => by show (i 2).val = if (1024 : Nat) = 1 then 0 else (i 2).val; rw [if_neg (by decide)])]
  show rowDot (V m c main_arg0) (V m c main_v2) (i 0) (i 2)
      = proj (m ((c : Thread nD τ).loc main_arg0)) (m ((c : Thread nD τ).loc main_arg1)) 2 (i 0) (i 2)
  unfold rowDot proj
  refine Finset.sum_congr rfl fun d _ => ?_
  rw [V_main_arg0, sliced]
  congr 1
  exact sliced_apply _ d (i 2)

/-- Every weakly fair execution ends with the result buffer at the value projection and the arguments unchanged. -/
theorem run : θ_run defs (onTc (τ := τ) (main (F := Ideal))) ⟨m, fun _ => 0, ρ⟩ fun r => ∀ c : Dev nD,
      r.2.mem ((c : Thread nD τ).loc main_v4)
        = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KValue

end
-- ==== Proof.lean ====
/-
  Self-attention with a sequence of length one, against its reference.

  The reference projects each row of `x` to a query, a key and a value, scores the one query against the one key,
  takes the softmax of that one-element row and contracts the weight with the value. The kernel computes the value
  projection only: `x` times the third weight matrix, in eight row blocks, with a unit sequence axis added at the end.
  On the extended reals, with real inputs, the score is a real number `s`; the row maximum is `s`, the shifted
  score `s - s = 0`, its exponential `1`, the normalizer `0 + 1` and the weight `1`; so the reference returns
  `1 · v = v`, the value projection, index by index. Real inputs are what the precondition provides, and they are
  needed: at an infinite score `s - s` is `-∞`, not `0`.

  Both results are `OneKey.value x w`: at `(b, 0, o)` the sum over `d` of `x[b, d] · w[2, d, o]`
  (`KValue.run` for the kernel, `RefValue.result_eq` for the reference). The idealized kernel is the kernel's own text
  read on the extended reals, so there is nothing to preserve beyond that.
-/
import proofs.«152140_j16973710754186_2_alg».proof.Defs
import proofs.«152140_j16973710754186_2_alg».proof.Proof.Gen.Kernel
import proofs.«152140_j16973710754186_2_alg».proof.Proof.Gen.Kernel.Skeleton
import proofs.«152140_j16973710754186_2_alg».proof.Proof.Gen.Kernel.Launch
import proofs.«152140_j16973710754186_2_alg».proof.Proof.Gen.Kernel.Points
import proofs.«152140_j16973710754186_2_alg».proof.Proof.Gen.Kernel.Frame
import proofs.«152140_j16973710754186_2_alg».proof.Proof.Gen.KernelIdeal
import proofs.«152140_j16973710754186_2_alg».proof.Proof.Gen.KernelIdeal.Skeleton
import proofs.«152140_j16973710754186_2_alg».proof.Proof.Gen.KernelIdeal.Launch
import proofs.«152140_j16973710754186_2_alg».proof.Proof.Gen.KernelIdeal.Points
import proofs.«152140_j16973710754186_2_alg».proof.Proof.Gen.KernelIdeal.Frame
import proofs.«152140_j16973710754186_2_alg».proof.Proof.Gen.ReferenceIdeal
import proofs.«152140_j16973710754186_2_alg».proof.Proof.Gen.Pre_finite_inputs
import proofs.«152140_j16973710754186_2_alg».proof.Proof.Gen.ReferenceIdeal.Run
import proofs.«152140_j16973710754186_2_alg».proof.Proof.Gen.ReferenceIdeal.Read
import proofs.«152140_j16973710754186_2_alg».proof.Proof.OneKey
import proofs.«152140_j16973710754186_2_alg».proof.Proof.FiniteInputs
import proofs.«152140_j16973710754186_2_alg».proof.Proof.RefValue
import proofs.«152140_j16973710754186_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From arguments that agree and are real, both programs end with the value projection in their result. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.OneKey.real_of_pre _ _ (hpre c)
  rw [Cert.ReferenceIdeal.Read.val_main_v23_eq, (hagree c).1, (hagree c).2]
  exact Cert.ReferenceIdeal.RefValue.result_eq _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
